-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S192x256 : Shape := ⟨2, ![192, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000x64 .f32) (main_arg3 : FVec F S192x256 .f32) (main_arg4 : FVec F S256 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x256 .f32 := Host.absf main_arg3
  let main_cst_2 : FVec F S_ .f32 := constant S_ .f32 0x7F800000#32
  let main_v10 : FVec F S192x256 .f32 := broadcastInDim S192x256 ![] bcast_S_S192x256 main_cst_2
  let main_v11 : IVec S192x256 1 := cmpf .olt main_v9 main_v10
  let main_c_3 : IVec S_ 1 := constantI S_ 1 1#1
  let main_v12 : IVec S_ 1 := (fun x v => Host.reduce IntOp.andi x v reducesTo_S192x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S192x256 : Shape := ⟨2, ![192, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000x64 : Shape := ⟨2, ![50000, 64]⟩
abbrev S800000x1 : Shape := ⟨2, ![800000, 1]⟩
abbrev S128x256 : Shape := ⟨2, ![128, 256]⟩
abbrev S64x256 : Shape := ⟨2, ![64, 256]⟩
abbrev S1x256 : Shape := ⟨2, ![1, 256]⟩
abbrev S1x128 : Shape := ⟨2, ![1, 128]⟩
abbrev S2000x128 : Shape := ⟨2, ![2000, 128]⟩
abbrev S2000x64 : Shape := ⟨2, ![2000, 64]⟩
abbrev S2000x256 : Shape := ⟨2, ![2000, 256]⟩

abbrev nBuf : Space → Nat
  | .hbm => 18
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S192x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000x64, .f32⟩
  | .hbm, ⟨11, _⟩ => ⟨S800000x1, .i32⟩
  | .hbm, ⟨12, _⟩ => ⟨S50000x64, .f32⟩
  | .hbm, ⟨13, _⟩ => ⟨S128x256, .f32⟩
  | .hbm, ⟨14, _⟩ => ⟨S64x256, .f32⟩
  | .hbm, ⟨15, _⟩ => ⟨S1x256, .f32⟩
  | .hbm, ⟨16, _⟩ => ⟨S1x128, .f32⟩
  | .hbm, ⟨17, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x64, .f32⟩
  | .local _ .vmem, ⟨3, _⟩ => ⟨S2000x64, .f32⟩
  | .local _ .vmem, ⟨4, _⟩ => ⟨S128x256, .f32⟩
  | .local _ .vmem, ⟨5, _⟩ => ⟨S64x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_1_0 : S2x800000.Slices ![1, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  slices_S192x256_S128x256_0_0 : S192x256.Slices ![0, 0] S128x256
  slices_S192x256_S64x256_128_0 : S192x256.Slices ![128, 0] S64x256
  shapeCasts_S256_S1x256 : S256.ShapeCasts S1x256
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000x64_S800000x1_S800000x64_1_0_0_1_wf : ScatterDims.WF S50000x64 S800000x1 S800000x64 [1] [0] [0] 1
  dot_S2000x128_S128x256_S2000x256_1_0_0_1_n_n_wf : DotDims.WF S2000x128 S128x256 S2000x256 [1] [0] [0] [1] [] []
  dot_S2000x64_S64x256_S2000x256_1_0_0_1_n_n_wf : DotDims.WF S2000x64 S64x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S192x256 : Shape := ⟨2, ![192, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000x64 : Shape := ⟨2, ![50000, 64]⟩
abbrev S800000x1 : Shape := ⟨2, ![800000, 1]⟩
abbrev S50000x192 : Shape := ⟨2, ![50000, 192]⟩
abbrev S50000x256 : Shape := ⟨2, ![50000, 256]⟩
abbrev S1x256 : Shape := ⟨2, ![1, 256]⟩
abbrev S1x128 : Shape := ⟨2, ![1, 128]⟩

abbrev nBuf : Space → Nat
  | .hbm => 28
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S192x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000x64, .f32⟩
  | .hbm, ⟨11, _⟩ => ⟨S800000x1, .i32⟩
  | .hbm, ⟨12, _⟩ => ⟨S50000x64, .f32⟩
  | .hbm, ⟨13, _⟩ => ⟨S50000x192, .f32⟩
  | .hbm, ⟨14, _⟩ => ⟨S50000x256, .f32⟩
  | .hbm, ⟨15, _⟩ => ⟨S1x256, .f32⟩
  | .hbm, ⟨16, _⟩ => ⟨S50000x256, .f32⟩
  | .hbm, ⟨17, _⟩ => ⟨S50000x256, .f32⟩
  | .hbm, ⟨18, _⟩ => ⟨S_, .f32⟩
  | .hbm, ⟨19, _⟩ => ⟨S50000x256, .f32⟩
  | .hbm, ⟨20, _⟩ => ⟨S50000x256, .f32⟩
  | .hbm, ⟨21, _⟩ => ⟨S50000x128, .f32⟩
  | .hbm, ⟨22, _⟩ => ⟨S1x128, .f32⟩
  | .hbm, ⟨23, _⟩ => ⟨S50000x128, .f32⟩
  | .hbm, ⟨24, _⟩ => ⟨S50000x128, .f32⟩
  | .hbm, ⟨25, _⟩ => ⟨S_, .f32⟩
  | .hbm, ⟨26, _⟩ => ⟨S50000x128, .f32⟩
  | .hbm, ⟨27, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  concatenates_S50000x128_S50000x64_S50000x192_d1 : Shape.Concatenates [S50000x128, S50000x64] S50000x192 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  scatter_S50000x64_S800000x1_S800000x64_1_0_0_1_wf : ScatterDims.WF S50000x64 S800000x1 S800000x64 [1] [0] [0] 1
  dot_S50000x192_S192x256_S50000x256_1_0_0_1_n_n_wf : DotDims.WF S50000x192 S192x256 S50000x256 [1] [0] [0] [1] [] []
  dot_S50000x256_S256x128_S50000x128_1_0_0_1_n_n_wf : DotDims.WF S50000x256 S256x128 S50000x128 [1] [0] [0] [1] [] []

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x192_S192x256_S50000x256_1_0_0_1_n_n : DotDims S50000x192 S192x256 S50000x256 where
  lhsContracting := [1]
  rhsContracting := [0]
  lhsNonContracting := [0]
  rhsNonContracting := [1]
  lhsBatch := []
  rhsBatch := []
  wf := dot_S50000x192_S192x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.NodeMlpSpec.lean ====
/-
  The node update of one message-passing layer, written as ONE function of its arrays.

  Node `n` carries 128 features `x n`; the 64-feature messages of the edges that point at it have been added up into
  `agg n`. The update is a two-layer perceptron on the 192 numbers `(x n, agg n)`:

      hidden n c = max (Σ_{k<128} x n k · W1 k c  +  Σ_{k<64} agg n k · W1 (128 + k) c  +  b1 c) 0        (256 units)
      out n j    = max (Σ_{c<256} hidden n c · W2 c j  +  b2 j) 0                                          (128 units)

  The first layer is spelt with the sum over the 192 inputs already cut where the node's own features end and the
  aggregated messages begin: rows 0..127 of `W1` meet `x`, rows 128..191 meet `agg`. A program that joins `x n` and
  `agg n` into one row of 192 entries and contracts that row with all of `W1` computes the same number, because a sum
  over `Fin 192` is the sum over its first 128 indices plus the sum over its last 64 (`sum_rows_split`); that uses only
  that addition of extended reals is commutative and associative, so it holds whatever the entries are, infinite ones
  included. The zero of the two rectifiers is kept as the word the programs print for it.
-/
import Idealize.ShloMosaic.PureOps.Ideal
import Idealize.ShloMosaic.Lib.ValueIdx

noncomputable section

open scoped BigOperators

namespace Cert.NodeMlp

open Idealize.ShloMosaic Idealize.ShloMosaic.ValueIdx

/-- The rectifiers' threshold: the single-precision word of zero, read as an extended real. -/
abbrev zeroWord : EReal := Ideal.ofBits .f32 0x00000000#32

/-- Row `k` of the first weight matrix, for `k` a node-feature index: the row itself. -/
abbrev rowX (k : Fin 128) : Fin 192 := ⟨k.val, by have := k.isLt; omega⟩

/-- The row of the first weight matrix that meets message feature `k`: the rows after the 128 node-feature rows. -/
abbrev rowE (k : Fin 64) : Fin 192 := ⟨128 + k.val, by have := k.isLt; omega⟩

/-- A sum over the 192 joined inputs is the sum over the 128 node features plus the sum over the 64 message features. -/
theorem sum_rows_split {M : Type*} [AddCommMonoid M] (f : Fin 192 → M) :
    ∑ k : Fin 192, f k = (∑ k : Fin 128, f (rowX k)) + ∑ k : Fin 64, f (rowE k) :=
  Fin.sum_univ_add (a := 128) (b := 64) f

/-- Hidden unit `c` of node `n`. -/
def hidden (x : (⟨2, ![50000, 128]⟩ : Shape).Idx → EReal) (agg : (⟨2, ![50000, 64]⟩ : Shape).Idx → EReal)
    (W1 : (⟨2, ![192, 256]⟩ : Shape).Idx → EReal) (b1 : (⟨1, ![256]⟩ : Shape).Idx → EReal) (n : Fin 50000) (c : Fin 256) : EReal :=
  max ((∑ k : Fin 128, x (ix2 n k) * W1 (ix2 (rowX k) c)) + (∑ k : Fin 64, agg (ix2 n k) * W1 (ix2 (rowE k) c)) + b1 (ix1 c)) zeroWord

/-- The updated features: entry `(n, j)` of the result. -/
def out (x : (⟨2, ![50000, 128]⟩ : Shape).Idx → EReal) (agg : (⟨2, ![50000, 64]⟩ : Shape).Idx → EReal)
    (W1 : (⟨2, ![192, 256]⟩ : Shape).Idx → EReal) (b1 : (⟨1, ![256]⟩ : Shape).Idx → EReal)
    (W2 : (⟨2, ![256, 128]⟩ : Shape).Idx → EReal) (b2 : (⟨1, ![128]⟩ : Shape).Idx → EReal) :
    (⟨2, ![50000, 128]⟩ : Shape).Idx → EReal :=
  fun i => max ((∑ c : Fin 256, hidden x agg W1 b1 (i 0) c * W2 (ix2 c (i 1))) + b2 (ix1 (i 1))) zeroWord

theorem out_apply (x : (⟨2, ![50000, 128]⟩ : Shape).Idx → EReal) (agg : (⟨2, ![50000, 64]⟩ : Shape).Idx → EReal)
    (W1 : (⟨2, ![192, 256]⟩ : Shape).Idx → EReal) (b1 : (⟨1, ![256]⟩ : Shape).Idx → EReal)
    (W2 : (⟨2, ![256, 128]⟩ : Shape).Idx → EReal) (b2 : (⟨1, ![128]⟩ : Shape).Idx → EReal) (n : Fin 50000) (j : Fin 128) :
    out x agg W1 b1 W2 b2 (ix2 n j) = max ((∑ c : Fin 256, hidden x agg W1 b1 n c * W2 (ix2 c j)) + b2 (ix1 j)) zeroWord := rfl

end Cert.NodeMlp

end
-- ==== Proof.RefIsSpec.lean ====
/-
  The reference program computes the node update of NodeMlpSpec.lean.

  The reference joins each node's 128 features and its 64 aggregated message features into one row of 192 entries,
  contracts that row with the whole first weight matrix, adds the bias and rectifies; then contracts the 256 hidden
  units with the second weight matrix, adds the second bias and rectifies again. Read at an entry: entry `k` of the joined
  row is `x n k` for `k < 128` and `agg n (k − 128)` from there on, so cutting the sum over the 192 entries at 128
  (`sum_rows_split`) gives exactly the two sums of the specification. The aggregated messages enter only as an array:
  the scatter-add that produced them is never opened.
-/
import proofs.«115435_j52252572123265_1_alg».proof.Proof.Gen.ReferenceIdeal.Read
import proofs.«115435_j52252572123265_1_alg».proof.Proof.NodeMlpSpec
import Idealize.ShloMosaic.Lib.Pipeline.Value
import Idealize.ShloMosaic.Lib.ValueIdx

noncomputable section

open scoped BigOperators

namespace Cert.NodeMlp.Ref

open Cert.ReferenceIdeal Cert.ReferenceIdeal.Read Idealize.ShloMosaic Idealize.ShloMosaic.ValueIdx Cert.NodeMlp

variable (x0 : (⟨S50000x128, .f32⟩ : BufTy).Contents (Elt Ideal)) (x1 : (⟨S2x800000, .i32⟩ : BufTy).Contents (Elt Ideal))
  (x2 : (⟨S800000x64, .f32⟩ : BufTy).Contents (Elt Ideal)) (x3 : (⟨S192x256, .f32⟩ : BufTy).Contents (Elt Ideal))
  (x4 : (⟨S256, .f32⟩ : BufTy).Contents (Elt Ideal)) (x5 : (⟨S256x128, .f32⟩ : BufTy).Contents (Elt Ideal))
  (x6 : (⟨S128, .f32⟩ : BufTy).Contents (Elt Ideal))

/-- Entry `k < 128` of node `n`'s joined row is the node's own feature `k`. -/
theorem joined_left (n : Fin 50000) (c : Fin 256) (k : Fin 128) :
    val_main_v5 (F := Ideal) x0 x1 x2 (lidx_main_v6 (ix2 n c) (rowX k)) = x0 (ix2 n k) := by
  unfold val_main_v5
  exact concatenate_pair_apply_left (t := S50000x192) (s₁ := S50000x128) (s₂ := S50000x64) 1 x0 (val_main_v4 (F := Ideal) x1 x2) _
    (lidx_main_v6 (ix2 n c) (rowX k)) rfl (ix2 n k) (fun b => by
    match b with
    | ⟨0, _⟩ => rfl
    | ⟨1, _⟩ => rfl)

/-- Entry `128 + k` of node `n`'s joined row is aggregated message feature `k`. -/
theorem joined_right (n : Fin 50000) (c : Fin 256) (k : Fin 64) :
    val_main_v5 (F := Ideal) x0 x1 x2 (lidx_main_v6 (ix2 n c) (rowE k)) = val_main_v4 (F := Ideal) x1 x2 (ix2 n k) := by
  unfold val_main_v5
  exact concatenate_pair_apply_right (t := S50000x192) (s₁ := S50000x128) (s₂ := S50000x64) 1 x0 (val_main_v4 (F := Ideal) x1 x2) _
    (lidx_main_v6 (ix2 n c) (rowE k)) rfl rfl (ix2 n k) (fun b hb => by
    match b with
    | ⟨0, _⟩ => rfl
    | ⟨1, _⟩ => exact absurd rfl hb) (by show k.val + 128 = 128 + k.val; exact Nat.add_comm _ _)

/-- The reference's hidden layer, read at an entry, is the specification's hidden unit. -/
theorem hidden_eq (n : Fin 50000) (c : Fin 256) :
    val_main_v10 (F := Ideal) x0 x1 x2 x3 x4 (ix2 n c) = hidden x0 (val_main_v4 (F := Ideal) x1 x2) x3 x4 n c := by
  rw [val_main_v10_apply, val_main_v9_apply, val_main_v6_apply, val_main_v8_apply, val_main_v7_apply,
    val_main_call0_v0_apply, val_main_call0_cst_apply, sum_rows_split]
  have e4 : idx_main_v7 (idx_main_v8 (ix2 n c)) = ix1 c := funext fun a => Fin.ext (by
    match a with
    | ⟨0, _⟩ => rfl)
  have rX : ∀ k : Fin 128, ridx_main_v6 (ix2 n c) (rowX k) = ix2 (rowX k) c := fun k => funext fun a => Fin.ext (by
    match a with
    | ⟨0, _⟩ => rfl
    | ⟨1, _⟩ => rfl)
  have rE : ∀ k : Fin 64, ridx_main_v6 (ix2 n c) (rowE k) = ix2 (rowE k) c := fun k => funext fun a => Fin.ext (by
    match a with
    | ⟨0, _⟩ => rfl
    | ⟨1, _⟩ => rfl)
  simp only [joined_left, joined_right, rX, rE, e4, Ideal.maximumf_def, Ideal.addf_def, Ideal.ofBits_def]
  rfl

/-- The reference's result is the node update of the arguments and of the aggregated messages. -/
theorem result_eq :
    val_main_v15 (F := Ideal) x0 x1 x2 x3 x4 x5 x6 = out x0 (val_main_v4 (F := Ideal) x1 x2) x3 x4 x5 x6 := by
  funext i
  obtain ⟨n, j, rfl⟩ : ∃ (n : Fin 50000) (j : Fin 128), i = ix2 n j := ⟨i 0, i 1, eq_ix2 i⟩
  rw [val_main_v15_apply, val_main_v14_apply, val_main_v11_apply, val_main_v13_apply, val_main_v12_apply,
    val_main_call1_v0_apply, val_main_call1_cst_apply, out_apply]
  have e6 : idx_main_v12 (idx_main_v13 (ix2 n j)) = ix1 j := funext fun a => Fin.ext (by
    match a with
    | ⟨0, _⟩ => rfl)
  have lH : ∀ c : Fin 256, lidx_main_v11 (ix2 n j) c = ix2 n c := fun c => funext fun a => Fin.ext (by
    match a with
    | ⟨0, _⟩ => rfl
    | ⟨1, _⟩ => rfl)
  have rH : ∀ c : Fin 256, ridx_main_v11 (ix2 n j) c = ix2 c j := fun c => funext fun a => Fin.ext (by
    match a with
    | ⟨0, _⟩ => rfl
    | ⟨1, _⟩ => rfl)
  simp only [lH, rH, e6, hidden_eq, Ideal.maximumf_def, Ideal.addf_def, Ideal.ofBits_def]

end Cert.NodeMlp.Ref

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.BodyAtEntry.lean ====
/-
  What the kernel body computes on one block of rows, read at an entry.

  The body is handed a block of 2000 node rows `xb` with the matching block `ab` of aggregated messages, and the whole
  of the two halves `wa`, `wb` of the first weight matrix, of the second weight matrix `w2` and of the two biases as
  one-row matrices. It multiplies `xb` by `wa` and `ab` by `wb`, each into a zero accumulator, adds the two products
  and the first bias laid along every row, rectifies, multiplies by `w2`, adds the second bias and rectifies again. Every
  change of float format on the way is the identity on extended reals, and a product into the zero accumulator is the
  plain sum over the contracted index, so entry `(p, j)` of the result is

      max (Σ_c max (Σ_k xb p k · wa k c + Σ_k ab p k · wb k c + b1 0 c) 0 · w2 c j + b2 0 j) 0 .
-/
import proofs.«115435_j52252572123265_1_alg».proof.Proof.Gen.KernelIdeal.Skeleton
import proofs.«115435_j52252572123265_1_alg».proof.Proof.LibMatmulPlain
import proofs.«115435_j52252572123265_1_alg».proof.Proof.NodeMlpSpec
import Idealize.ShloMosaic.Lib.Pipeline.Value
import Idealize.ShloMosaic.Lib.ValueIdx
import Idealize.ShloMosaic.Lib.ValueLayout

noncomputable section

open scoped BigOperators

namespace Cert.NodeMlp.Body

open Cert.KernelIdeal Cert.KernelIdeal.Gen Idealize.ShloMosaic Idealize.ShloMosaic.ValueIdx Cert.NodeMlp

/-- The node-feature product at an entry: row `p` of the block against column `c` of the first 128 weight rows. -/
theorem prodX_apply (A : FVec Ideal S2000x128 .bf16) (B : FVec Ideal S128x256 .bf16) (p : Fin 2000) (c : Fin 256) :
    matmul dot_S2000x128_S128x256_S2000x256_1_0_0_1_n_n none A B (constant (F := Ideal) S2000x256 .f32 0x00000000#32) (ix2 p c)
      = ∑ k : Fin 128, A (ix2 p k) * B (ix2 k c) :=
  Cert.LibMatmulPlain.matmul_plain_zero_apply none A B p c

/-- The message product at an entry: row `p` of the aggregated block against column `c` of the last 64 weight rows. -/
theorem prodE_apply (A : FVec Ideal S2000x64 .bf16) (B : FVec Ideal S64x256 .bf16) (p : Fin 2000) (c : Fin 256) :
    matmul dot_S2000x64_S64x256_S2000x256_1_0_0_1_n_n none A B (constant (F := Ideal) S2000x256 .f32 0x00000000#32) (ix2 p c)
      = ∑ k : Fin 64, A (ix2 p k) * B (ix2 k c) :=
  Cert.LibMatmulPlain.matmul_plain_zero_apply none A B p c

/-- The second layer's product at an entry: row `p` of the hidden block against column `j` of the second weights. -/
theorem prodH_apply (A : FVec Ideal S2000x256 .bf16) (B : FVec Ideal S256x128 .bf16) (p : Fin 2000) (j : Fin 128) :
    matmul dot_S2000x256_S256x128_S2000x128_1_0_0_1_n_n none A B (constant (F := Ideal) S2000x128 .f32 0x00000000#32) (ix2 p j)
      = ∑ c : Fin 256, A (ix2 p c) * B (ix2 c j) :=
  Cert.LibMatmulPlain.matmul_plain_zero_apply none A B p j

/-- Entry `(p, j)` of what the body stores, from the blocks it loads. -/
theorem block_apply (xb : Vec Ideal S2000x128 .f32) (ab : Vec Ideal S2000x64 .f32) (wa : Vec Ideal S128x256 .f32)
    (wb : Vec Ideal S64x256 .f32) (w2 : Vec Ideal S256x128 .f32) (bb1 : Vec Ideal S1x256 .f32) (bb2 : Vec Ideal S1x128 .f32)
    (p : Fin 2000) (j : Fin 128) :
    k0_pay1 (F := Ideal) xb ab wa wb w2 bb1 bb2 (ix2 p j)
      = max ((∑ c : Fin 256, max ((∑ k : Fin 128, xb (ix2 p k) * wa (ix2 k c)) + (∑ k : Fin 64, ab (ix2 p k) * wb (ix2 k c))
          + bb1 (ix2 (0 : Fin 1) c)) zeroWord * w2 (ix2 c j)) + bb2 (ix2 (0 : Fin 1) j)) zeroWord := by
  unfold k0_pay1
  rw [maximumf_apply, addf_apply, broadcast_apply, prodH_apply, broadcastTo_1b_ab_apply]
  simp only [truncf_apply, maximumf_apply, addf_apply, broadcast_apply, prodX_apply, prodE_apply, broadcastTo_1b_ab_apply,
    shapeCast_self]
  rfl

end Cert.NodeMlp.Body

end
-- ==== Proof.EntryArrays.lean ====
/-
  The arrays the kernel's launch finds, in terms of the program's arguments.

  Before the launch the program prepares five arrays on the host. The edges' 64 features are added into the rows their
  target indices name (`aggregated`: the second row of the edge-index array picks the target node of every edge; an
  index outside the node range is dropped by the scatter). The first weight matrix is cut after its 128th row into the
  part that meets the node features and the part that meets the aggregated messages. Each bias vector is recast as a
  one-row matrix. Read at an entry: row `k` of the upper part is row `k` of the matrix, row `k` of the lower part is
  row `128 + k`, and entry `(0, c)` of a one-row bias is entry `c` of the vector.
-/
import proofs.«115435_j52252572123265_1_alg».proof.Proof.Gen.KernelIdeal.Frame
import proofs.«115435_j52252572123265_1_alg».proof.Proof.NodeMlpSpec
import Idealize.ShloMosaic.Lib.StableHlo.Run
import Idealize.ShloMosaic.Lib.Pipeline.Value
import Idealize.ShloMosaic.Lib.ValueIdx
import Idealize.ShloMosaic.Lib.ValueLayout

noncomputable section

namespace Cert.NodeMlp.Entry

open Cert.KernelIdeal Cert.KernelIdeal.Gen Idealize.ShloMosaic Idealize.ShloMosaic.TcCoe Idealize.SL.Sem
open Idealize.ShloMosaic.ValueIdx Cert.NodeMlp

variable (m : (ℓ : Loc nD τ sig) → Buf (Elt Ideal) ℓ)

/-- The aggregated messages: every edge's features added into the row of the edge's target node, starting from zero. -/
def aggregated (e : (⟨S2x800000, .i32⟩ : BufTy).Contents (Elt Ideal)) (u : (⟨S800000x64, .f32⟩ : BufTy).Contents (Elt Ideal)) :
    (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0
      (shapeCast _ (extractStridedSlice S1x800000 ![1, 0] e slices_S2x800000_S1x800000_1_0) shapeCasts_S1x800000_S800000)) u

/-- The launch finds the aggregated messages in its second operand. -/
theorem entry_agg (c : Dev nD) :
    (V m c main_v4 : S50000x64.Idx → EReal)
      = aggregated (m ((c : Thread nD τ).loc main_arg1)) (m ((c : Thread nD τ).loc main_arg2)) := by
  dsimp only [V, hostOps0]
  after_results <;> rfl

/-- Row `k` of the upper part of the first weight matrix is row `k` of the matrix. -/
theorem entry_w1x_apply (c : Dev nD) (k : Fin 128) (cc : Fin 256) :
    (V m c main_v5 : S128x256.Idx → EReal) (ix2 k cc)
      = (m ((c : Thread nD τ).loc main_arg3) : S192x256.Idx → EReal) (ix2 (rowX k) cc) := by
  have e : (V m c main_v5 : S128x256.Idx → EReal)
      = extractStridedSlice S128x256 ![0, 0] (m ((c : Thread nD τ).loc main_arg3) : S192x256.Idx → EReal) slices_S192x256_S128x256_0_0 := by
    dsimp only [V, hostOps0]
    after_results <;> rfl
  rw [e]
  exact slice2_axis0_apply 0 _ _ k cc (rowX k) (Nat.zero_add _).symm

/-- Row `k` of the lower part of the first weight matrix is row `128 + k` of the matrix. -/
theorem entry_w1e_apply (c : Dev nD) (k : Fin 64) (cc : Fin 256) :
    (V m c main_v6 : S64x256.Idx → EReal) (ix2 k cc)
      = (m ((c : Thread nD τ).loc main_arg3) : S192x256.Idx → EReal) (ix2 (rowE k) cc) := by
  have e : (V m c main_v6 : S64x256.Idx → EReal)
      = extractStridedSlice S64x256 ![128, 0] (m ((c : Thread nD τ).loc main_arg3) : S192x256.Idx → EReal) slices_S192x256_S64x256_128_0 := by
    dsimp only [V, hostOps0]
    after_results <;> rfl
  rw [e]
  exact slice2_axis0_apply 128 _ _ k cc (rowE k) rfl

/-- The first bias as a one-row matrix. -/
theorem entry_b1_apply (c : Dev nD) (cc : Fin 256) :
    (V m c main_v7 : S1x256.Idx → EReal) (ix2 (0 : Fin 1) cc)
      = (m ((c : Thread nD τ).loc main_arg4) : S256.Idx → EReal) (ix1 cc) := by
  have e : (V m c main_v7 : S1x256.Idx → EReal)
      = shapeCast S1x256 (m ((c : Thread nD τ).loc main_arg4) : S256.Idx → EReal) shapeCasts_S256_S1x256 := by
    dsimp only [V, hostOps0]
    after_results <;> rfl
  rw [e]
  exact shapeCast_a_1a_apply _ _ (0 : Fin 1) cc

/-- The second bias as a one-row matrix. -/
theorem entry_b2_apply (c : Dev nD) (j : Fin 128) :
    (V m c main_v8 : S1x128.Idx → EReal) (ix2 (0 : Fin 1) j)
      = (m ((c : Thread nD τ).loc main_arg6) : S128.Idx → EReal) (ix1 j) := by
  have e : (V m c main_v8 : S1x128.Idx → EReal)
      = shapeCast S1x128 (m ((c : Thread nD τ).loc main_arg6) : S128.Idx → EReal) shapeCasts_S128_S1x128 := by
    dsimp only [V, hostOps0]
    after_results <;> rfl
  rw [e]
  exact shapeCast_a_1a_apply _ _ (0 : Fin 1) j

end Cert.NodeMlp.Entry

end
-- ==== Proof.KernelBlocks.lean ====
/-
  The blocks a grid point of the kernel is handed, in terms of the program's arguments.

  The launch walks 25 grid points. Point `t` is handed rows `2000 t … 2000 t + 1999` of the node features and of the
  aggregated messages, and the whole of the weights and biases (their index maps are constant); it writes back rows
  `2000 t … 2000 t + 1999` of the result. Read at an entry, each block is the argument it was cut from: row `p` of a
  row block is row `2000 t + p`, the weight blocks are the cut weight matrix and the one-row biases of EntryArrays.lean.
-/
import proofs.«115435_j52252572123265_1_alg».proof.Proof.Gen.KernelIdeal.Value
import proofs.«115435_j52252572123265_1_alg».proof.Proof.NodeMlpSpec
import proofs.«115435_j52252572123265_1_alg».proof.Proof.EntryArrays
import Idealize.ShloMosaic.Lib.Pipeline.Value
import Idealize.ShloMosaic.Lib.ValueIdx

noncomputable section

open scoped BigOperators

namespace Cert.NodeMlp.Kernel

open Cert.KernelIdeal Cert.KernelIdeal.Gen Cert.KernelIdeal.Value Idealize.ShloMosaic Idealize.ShloMosaic.TcCoe Idealize.SL.Sem
open Idealize.ShloMosaic.ValueIdx Cert.NodeMlp Cert.NodeMlp.Entry
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the two row-blocked inputs and the output move with the point along the rows,
    the weights and biases stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of block `t` is row `2000 t + p` of the array. -/
def row (t : Fin cfg0.N) (p : Fin 2000) : Fin 50000 :=
  ⟨2000 * t.val + p.val, by have h := t.isLt; have hN : cfg0.N = 25 := N_0; have := p.isLt; omega⟩

/-- The node update of the program's arguments (the aggregated messages from the edge arguments). -/
abbrev result (c : Dev nD) : S50000x128.Idx → EReal :=
  out (m ((c : Thread nD τ).loc main_arg0)) (aggregated (m ((c : Thread nD τ).loc main_arg1)) (m ((c : Thread nD τ).loc main_arg2)))
    (m ((c : Thread nD τ).loc main_arg3)) (m ((c : Thread nD τ).loc main_arg4)) (m ((c : Thread nD τ).loc main_arg5))
    (m ((c : Thread nD τ).loc main_arg6))

/-! ## The blocks a point is handed -/

/-- The node-feature block of point `t`: rows `2000 t + p` of the node features. -/
theorem x_block_apply (c : Dev nD) (t : Fin cfg0.N) (p : Fin 2000) (k : Fin 128) :
    (iblk m c 0 t : Vec Ideal S2000x128 .f32) (ix2 p k)
      = (m ((c : Thread nD τ).loc main_arg0) : S50000x128.Idx → EReal) (ix2 (row t p) k) := by
  obtain ⟨e0, e1, -⟩ := idx_facts t
  unfold iblk
  rw [View.read_apply]
  show V m c main_arg0 _ = _
  rw [V_main_arg0]
  refine congrArg (m ((c : Thread nD τ).loc main_arg0) : S50000x128.Idx → EReal) (funext fun a => Fin.ext ?_)
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- What the launch finds in a buffer depends only on which buffer it is. -/
theorem entry_of_eq (c : Dev nD) {b b' : Ref sig .tc} (h : b = b') : HEq (V m c b) (V m c b') := by
  subst h
  rfl

/-- The array of the launch's second window is the aggregated messages. -/
theorem agg_window (c : Dev nD) :
    V m c (Pipeline.arrRef spec0 (1 : Fin cfg0.W))
      = aggregated (m ((c : Thread nD τ).loc main_arg1)) (m ((c : Thread nD τ).loc main_arg2)) :=
  (eq_of_heq (entry_of_eq m c (b := Pipeline.arrRef spec0 (1 : Fin cfg0.W)) (b' := main_v4) rfl)).trans (entry_agg m c)

/-- Through the second window, entry `(p, k)` of block `t` of any array is its entry `(2000 t + p, k)`. -/
theorem rows_of_agg_window (c : Dev nD) (A : Buf (Elt Ideal) ((c : Thread nD τ).loc (Pipeline.arrRef spec0 (1 : Fin cfg0.W))))
    (t : Fin cfg0.N) (p : Fin 2000) (k : Fin 64) :
    ((cfg0.win 1).blk t).view.read (Elt Ideal) A (ix2 p k : S2000x64.Idx) = A (ix2 (row t p) k : S50000x64.Idx) := by
  obtain ⟨-, -, e0, e1, -⟩ := idx_facts t
  rw [View.read_apply]
  refine congrArg A (funext fun a => Fin.ext ?_)
  match a with
  | ⟨0, _⟩ => show win0_1.index t (0 : Fin 2) * 2000 + 1 * p.val = 2000 * t.val + p.val; rw [e0]; omega
  | ⟨1, _⟩ => show win0_1.index t (1 : Fin 2) * 64 + 1 * k.val = k.val; rw [e1]; omega

/-- The aggregated-message block of point `t`: rows `2000 t + p` of the aggregated messages. -/
theorem agg_block_apply (c : Dev nD) (t : Fin cfg0.N) (p : Fin 2000) (k : Fin 64) :
    (iblk m c 1 t : Vec Ideal S2000x64 .f32) (ix2 p k)
      = aggregated (m ((c : Thread nD τ).loc main_arg1)) (m ((c : Thread nD τ).loc main_arg2)) (ix2 (row t p) k) := by
  unfold iblk
  rw [rows_of_agg_window, agg_window m c]

/-- The upper part of the first weight matrix, whole at every point. -/
theorem w1x_block_apply (c : Dev nD) (t : Fin cfg0.N) (k : Fin 128) (cc : Fin 256) :
    (iblk m c 2 t : Vec Ideal S128x256 .f32) (ix2 k cc)
      = (m ((c : Thread nD τ).loc main_arg3) : S192x256.Idx → EReal) (ix2 (rowX k) cc) := by
  obtain ⟨-, -, -, -, e0, e1, -⟩ := idx_facts t
  unfold iblk
  rw [View.read_apply]
  refine Eq.trans (congrArg (V m c main_v5 : S128x256.Idx → EReal) (funext fun a => Fin.ext ?_)) (entry_w1x_apply m c k cc)
  match a with
  | ⟨0, _⟩ => show win0_2.index t (0 : Fin 2) * 128 + 1 * k.val = k.val; rw [e0]; omega
  | ⟨1, _⟩ => show win0_2.index t (1 : Fin 2) * 256 + 1 * cc.val = cc.val; rw [e1]; omega

/-- The lower part of the first weight matrix, whole at every point. -/
theorem w1e_block_apply (c : Dev nD) (t : Fin cfg0.N) (k : Fin 64) (cc : Fin 256) :
    (iblk m c 3 t : Vec Ideal S64x256 .f32) (ix2 k cc)
      = (m ((c : Thread nD τ).loc main_arg3) : S192x256.Idx → EReal) (ix2 (rowE k) cc) := by
  obtain ⟨-, -, -, -, -, -, e0, e1, -⟩ := idx_facts t
  unfold iblk
  rw [View.read_apply]
  refine Eq.trans (congrArg (V m c main_v6 : S64x256.Idx → EReal) (funext fun a => Fin.ext ?_)) (entry_w1e_apply m c k cc)
  match a with
  | ⟨0, _⟩ => show win0_3.index t (0 : Fin 2) * 64 + 1 * k.val = k.val; rw [e0]; omega
  | ⟨1, _⟩ => show win0_3.index t (1 : Fin 2) * 256 + 1 * cc.val = cc.val; rw [e1]; omega

/-- The first bias, whole at every point. -/
theorem b1_block_apply (c : Dev nD) (t : Fin cfg0.N) (cc : Fin 256) :
    (iblk m c 4 t : Vec Ideal S1x256 .f32) (ix2 (0 : Fin 1) cc)
      = (m ((c : Thread nD τ).loc main_arg4) : S256.Idx → EReal) (ix1 cc) := by
  obtain ⟨-, -, -, -, -, -, -, -, e0, e1, -⟩ := idx_facts t
  unfold iblk
  rw [View.read_apply]
  refine Eq.trans (congrArg (V m c main_v7 : S1x256.Idx → EReal) (funext fun a => Fin.ext ?_)) (entry_b1_apply m c cc)
  match a with
  | ⟨0, _⟩ => show win0_4.index t (0 : Fin 2) * 1 + 1 * 0 = 0; rw [e0]
  | ⟨1, _⟩ => show win0_4.index t (1 : Fin 2) * 256 + 1 * cc.val = cc.val; rw [e1]; omega

/-- The second weight matrix, whole at every point. -/
theorem w2_block_apply (c : Dev nD) (t : Fin cfg0.N) (cc : Fin 256) (j : Fin 128) :
    (iblk m c 5 t : Vec Ideal S256x128 .f32) (ix2 cc j)
      = (m ((c : Thread nD τ).loc main_arg5) : S256x128.Idx → EReal) (ix2 cc j) := by
  obtain ⟨-, -, -, -, -, -, -, -, -, -, e0, e1, -⟩ := idx_facts t
  unfold iblk
  rw [View.read_apply]
  show V m c main_arg5 _ = _
  rw [V_main_arg5]
  refine congrArg (m ((c : Thread nD τ).loc main_arg5) : S256x128.Idx → EReal) (funext fun a => Fin.ext ?_)
  match a with
  | ⟨0, _⟩ => show win0_5.index t (0 : Fin 2) * 256 + 1 * cc.val = cc.val; rw [e0]; omega
  | ⟨1, _⟩ => show win0_5.index t (1 : Fin 2) * 128 + 1 * j.val = j.val; rw [e1]; omega

/-- The second bias, whole at every point. -/
theorem b2_block_apply (c : Dev nD) (t : Fin cfg0.N) (j : Fin 128) :
    (iblk m c 6 t : Vec Ideal S1x128 .f32) (ix2 (0 : Fin 1) j)
      = (m ((c : Thread nD τ).loc main_arg6) : S128.Idx → EReal) (ix1 j) := by
  obtain ⟨-, -, -, -, -, -, -, -, -, -, -, -, e0, e1, -⟩ := idx_facts t
  unfold iblk
  rw [View.read_apply]
  refine Eq.trans (congrArg (V m c main_v8 : S1x128.Idx → EReal) (funext fun a => Fin.ext ?_)) (entry_b2_apply m c j)
  match a with
  | ⟨0, _⟩ => show win0_6.index t (0 : Fin 2) * 1 + 1 * 0 = 0; rw [e0]
  | ⟨1, _⟩ => show win0_6.index t (1 : Fin 2) * 128 + 1 * j.val = j.val; rw [e1]; omega

/-- Entry `(p, j)` of the output block of point `t` sits at `(2000 t + p, j)` of the result array. -/
theorem out_block_emb (t : Fin cfg0.N) (p : Fin 2000) (j : Fin 128) :
    ((cfg0.win 7).blk t).view.emb (ix2 p j : S2000x128.Idx) = (ix2 (row t p) j : S50000x128.Idx) := by
  obtain ⟨-, -, -, -, -, -, -, -, -, -, -, -, -, -, e0, e1⟩ := idx_facts t
  refine funext fun a => Fin.ext ?_
  match a with
  | ⟨0, _⟩ => show win0_7.index t (0 : Fin 2) * 2000 + 1 * p.val = 2000 * t.val + p.val; rw [e0]; omega
  | ⟨1, _⟩ => show win0_7.index t (1 : Fin 2) * 128 + 1 * j.val = j.val; rw [e1]; omega

end Cert.NodeMlp.Kernel

end
-- ==== Proof.KernelIsSpec.lean ====
/-
  The kernel's result array is the node update of NodeMlpSpec.lean.

  The launch walks 25 grid points. Point `t` is handed rows `2000 t … 2000 t + 1999` of the node features and of the
  aggregated messages, and the whole of the weights and biases (their index maps are constant), and writes back rows
  `2000 t … 2000 t + 1999` of the result. So entry `(p, j)` of what point `t` writes is the body's value
  (BodyAtEntry.lean) on those blocks, which, with the blocks read as rows of the arguments (KernelBlocks.lean), is the specification's entry `(2000 t + p, j)`: the node update reads only
  row `n` of the two row-indexed arrays, and row `p` of block `t` is row `2000 t + p`. The 25 blocks tile the 50000
  rows (row `r` lies in block `r / 2000`), so the array after the run is the specification everywhere.
-/
import proofs.«115435_j52252572123265_1_alg».proof.Proof.Gen.KernelIdeal.Value
import proofs.«115435_j52252572123265_1_alg».proof.Proof.NodeMlpSpec
import proofs.«115435_j52252572123265_1_alg».proof.Proof.BodyAtEntry
import proofs.«115435_j52252572123265_1_alg».proof.Proof.EntryArrays
import proofs.«115435_j52252572123265_1_alg».proof.Proof.KernelBlocks
import Idealize.ShloMosaic.Lib.Pipeline.Value
import Idealize.ShloMosaic.Lib.ValueIdx

noncomputable section

open scoped BigOperators

namespace Cert.NodeMlp.Kernel

open Cert.KernelIdeal Cert.KernelIdeal.Gen Cert.KernelIdeal.Value Idealize.ShloMosaic Idealize.ShloMosaic.TcCoe Idealize.SL.Sem
open Idealize.ShloMosaic.ValueIdx Cert.NodeMlp Cert.NodeMlp.Entry Cert.NodeMlp.Body
open Idealize.ShloMosaic.Pipeline (Dat)

variable (m : (ℓ : Loc nD τ sig) → Buf (Elt Ideal) ℓ) (ρ : Dev nD → PrngReg)

/-! ## What a point writes back, the cover, the array after the run -/

/-- What point `t` writes back is block `t` of the node update. -/
theorem flushed_eq (c : Dev nD) (t : Fin cfg0.N) :
    (dats m 0 c).flushed 7 t = ((cfg0.win 7).blk t).view.read (Elt Ideal) (result m c) := by
  rw [flushed7]
  unfold out0_7
  rw [View.canon_unit_zero hz]
  simp only [View.ld_unit_zero (S := S2000x128) hz, View.ld_unit_zero (S := S2000x64) hz, View.ld_unit_zero (S := S128x256) hz,
    View.ld_unit_zero (S := S64x256) hz, View.ld_unit_zero (S := S256x128) hz, View.ld_unit_zero (S := S1x256) hz,
    View.ld_unit_zero (S := S1x128) hz]
  funext y
  obtain ⟨p, j, rfl⟩ : ∃ (p : Fin 2000) (j : Fin 128), y = (ix2 p j : S2000x128.Idx) := ⟨y 0, y 1, eq_ix2 y⟩
  show k0_pay1 (iblk m c 0 t) (iblk m c 1 t) (iblk m c 2 t) (iblk m c 3 t) (iblk m c 5 t) (iblk m c 4 t) (iblk m c 6 t) (ix2 p j)
    = out (m ((c : Thread nD τ).loc main_arg0)) (aggregated (m ((c : Thread nD τ).loc main_arg1)) (m ((c : Thread nD τ).loc main_arg2)))
        (m ((c : Thread nD τ).loc main_arg3)) (m ((c : Thread nD τ).loc main_arg4)) (m ((c : Thread nD τ).loc main_arg5))
        (m ((c : Thread nD τ).loc main_arg6)) (((cfg0.win 7).blk t).view.emb (ix2 p j : S2000x128.Idx))
  rw [out_block_emb, out_apply]
  refine (block_apply (iblk m c 0 t) (iblk m c 1 t) (iblk m c 2 t) (iblk m c 3 t) (iblk m c 5 t) (iblk m c 4 t) (iblk m c 6 t) p j).trans ?_
  unfold hidden
  simp only [x_block_apply, agg_block_apply, w1x_block_apply, w1e_block_apply, b1_block_apply, w2_block_apply, b2_block_apply]

/-- An index of the array is in point `t`'s block iff each coordinate is in the block's range on its axis. -/
theorem mem_blk (t : Fin cfg0.N) (i : S50000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v9).slice (win0_7.rect t)).set ↔ _
  rw [View.set_slice_whole, Rect.mem_set_unit]
  exact Iff.rfl

/-- Row `r` of the result lies in the block of point `r / 2000`: the 25 blocks cover the array. -/
theorem cover (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨-, -, -, -, -, -, -, -, -, -, -, -, -, -, e0, e1⟩ := idx_facts ⟨(i 0).val / 2000, hlt⟩
  refine ⟨⟨(i 0).val / 2000, hlt⟩, flush0_7 _, ?_⟩
  rw [mem_blk]
  intro a
  match a with
  | ⟨0, _⟩ =>
    show win0_7.index ⟨(i 0).val / 2000, hlt⟩ (0 : Fin 2) * 2000 ≤ (i 0).val
      ∧ (i 0).val < win0_7.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win0_7.index ⟨(i 0).val / 2000, hlt⟩ (1 : Fin 2) * 128 ≤ (i 1).val
      ∧ (i 1).val < win0_7.index ⟨(i 0).val / 2000, hlt⟩ (1 : Fin 2) * 128 + 128
    rw [e1]
    omega

/-- The result array after the run is the node update. -/
theorem final (c : Dev nD) : (dats m 0 c).arrAt 7 cfg0.N = result m c :=
  (dats m 0 c).arrAt_eq_of_cover 7 (result m c) (fun t _ => flushed_eq m c t) cover

/-- The kernel's run: it ends with the result array at the node update of the arguments, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.NodeMlp.Kernel

end
-- ==== Proof.lean ====
/-
  A node update of a message-passing layer: a kernel that splits the first matrix product, against the reference that
  joins its inputs.

  Both programs first add every edge's 64 features into the row of the edge's target node (the same scatter-add of the
  same arguments, never opened here) and then apply a two-layer perceptron with rectifiers to each node's 128 own
  features and its 64 aggregated ones.
    * The reference joins the two feature arrays into rows of 192 entries and multiplies by the whole first weight
      matrix `W1`.
    * The kernel never forms the joined row: it cuts `W1` after row 128, multiplies the node features by the upper part
      and the aggregated messages by the lower part, and adds the two products. It does so block by block, 2000 nodes
      per grid point, with the weights resident; its roundings to a 16-bit format before each product are the identity on
      extended reals.
  Index by index the two agree because a sum over the 192 joined inputs is the sum over its first 128 terms plus the sum
  over its last 64 — commutativity and associativity of addition only, so no finiteness of the inputs is used.
    * NodeMlpSpec.lean states the update as one function `out` of the arrays, and the cut of the sum;
    * RefIsSpec.lean reads the reference's result at an entry and finds `out`;
    * BodyAtEntry.lean reads the kernel body's stored block at an entry; EntryArrays.lean reads the arrays the launch
      finds (the cut weight matrix, the biases as one-row matrices, the aggregated messages) in terms of the arguments;
      KernelBlocks.lean reads the blocks a grid point is handed as rows of those arrays; KernelIsSpec.lean puts the 25 written blocks together into the whole result array and finds `out` again.
  The three programs' runs (termination, no fault, arguments unchanged) are the generated ones; nothing was rewritten
  between the kernel and its idealization, so that conjunct is trivial.
-/
import proofs.«115435_j52252572123265_1_alg».proof.Defs
import proofs.«115435_j52252572123265_1_alg».proof.Proof.Gen.Kernel
import proofs.«115435_j52252572123265_1_alg».proof.Proof.Gen.Kernel.Frame
import proofs.«115435_j52252572123265_1_alg».proof.Proof.Gen.KernelIdeal
import proofs.«115435_j52252572123265_1_alg».proof.Proof.Gen.KernelIdeal.Frame
import proofs.«115435_j52252572123265_1_alg».proof.Proof.Gen.KernelIdeal.Value
import proofs.«115435_j52252572123265_1_alg».proof.Proof.Gen.ReferenceIdeal
import proofs.«115435_j52252572123265_1_alg».proof.Proof.Gen.ReferenceIdeal.Run
import proofs.«115435_j52252572123265_1_alg».proof.Proof.Gen.ReferenceIdeal.Read
import proofs.«115435_j52252572123265_1_alg».proof.Proof.Gen.Pre_finite_inputs
import proofs.«115435_j52252572123265_1_alg».proof.Proof.NodeMlpSpec
import proofs.«115435_j52252572123265_1_alg».proof.Proof.RefIsSpec
import proofs.«115435_j52252572123265_1_alg».proof.Proof.KernelIsSpec
import Idealize.ShloMosaic.Adequacy
import Idealize.ShloMosaic.Init

noncomputable section

namespace Cert.Proof

open Idealize.ShloMosaic Idealize.ShloMosaic.TcCoe Idealize.SL.Sem

/-- The two programs aggregate the messages by the same operations of the same arguments: one array. -/
theorem aggregated_eq (e : (⟨Cert.KernelIdeal.S2x800000, .i32⟩ : BufTy).Contents (Elt Ideal))
    (u : (⟨Cert.KernelIdeal.S800000x64, .f32⟩ : BufTy).Contents (Elt Ideal)) :
    Cert.ReferenceIdeal.Read.val_main_v4 (F := Ideal) e u = Cert.NodeMlp.Entry.aggregated e u := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- Both runs end with the result at the node update `out` of the arguments: the kernel's array put together from its
    25 blocks, the reference's read entry by entry; the arguments agree, and the aggregated messages are one array. -/
theorem algebraic : Cert.algebraic_KernelIdeal_ReferenceIdeal := by
  intro m ρ m' ρ' _ hagree
  refine ⟨fun c => Cert.NodeMlp.Kernel.result m c, Cert.NodeMlp.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v15_eq, Cert.NodeMlp.Ref.result_eq, aggregated_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
